-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S320000 : Shape := ⟨1, ![320000]⟩
abbrev S256x256 : Shape := ⟨2, ![256, 256]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x256 .f32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S20000x256 .f32) (main_arg1 : IVec S320000 32) (main_arg2 : IVec S320000 32) (main_arg3 : FVec F S256x256 .f32) (main_arg4 : FVec F S256x256 .f32) (main_arg5 : FVec F S256 .f32) (main_arg6 : FVec F S256x256 .f32) (main_arg7 : FVec F S256x256 .f32) (main_arg8 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S20000x256 : Shape := ⟨2, ![20000, 256]⟩
abbrev S320000 : Shape := ⟨1, ![320000]⟩
abbrev S256x256 : Shape := ⟨2, ![256, 256]⟩
abbrev S256 : Shape := ⟨1, ![256]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S1x256 : Shape := ⟨2, ![1, 256]⟩
abbrev S2000x256 : Shape := ⟨2, ![2000, 256]⟩

abbrev nBuf : Space → Nat
  | .hbm => 92
  | .vmem => 18
  | .smem => 0
  | _ => 0

abbrev bufTy : (tb : Table) → Fin (tcTables nBuf tb) → BufTy
  | .hbm, ⟨0, _⟩ => ⟨S20000x256, .f32⟩
  | .hbm, ⟨1, _⟩ => ⟨S320000, .i32⟩
  | .hbm, ⟨2, _⟩ => ⟨S320000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S_, .f32⟩
  | .hbm, ⟨19, _⟩ => ⟨S20000x256, .f32⟩
  | .hbm, ⟨20, _⟩ => ⟨S320000x1, .i32⟩
  | .hbm, ⟨21, _⟩ => ⟨S20000x256, .f32⟩
  | .hbm, ⟨22, _⟩ => ⟨S_, .f32⟩
  | .hbm, ⟨23, _⟩ => ⟨S320000, .f32⟩
  | .hbm, ⟨24, _⟩ => ⟨S_, .f32⟩
  | .hbm, ⟨25, _⟩ => ⟨S20000, .f32⟩
  | .hbm, ⟨26, _⟩ => ⟨S320000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x256, .f32⟩
  | .hbm, ⟨33, _⟩ => ⟨S20000x256, .f32⟩
  | .hbm, ⟨34, _⟩ => ⟨S20000x256, .bf16⟩
  | .hbm, ⟨35, _⟩ => ⟨S20000x256, .bf16⟩
  | .hbm, ⟨36, _⟩ => ⟨S256x256, .bf16⟩
  | .hbm, ⟨37, _⟩ => ⟨S256x256, .bf16⟩
  | .hbm, ⟨38, _⟩ => ⟨S1x256, .f32⟩
  | .hbm, ⟨39, _⟩ => ⟨S20000x256, .f32⟩
  | .hbm, ⟨40, _⟩ => ⟨S_, .i32⟩
  | .hbm, ⟨41, _⟩ => ⟨S320000, .i32⟩
  | .hbm, ⟨42, _⟩ => ⟨S320000, .i1⟩
  | .hbm, ⟨43, _⟩ => ⟨S_, .i32⟩
  | .hbm, ⟨44, _⟩ => ⟨S320000, .i32⟩
  | .hbm, ⟨45, _⟩ => ⟨S320000, .i32⟩
  | .hbm, ⟨46, _⟩ => ⟨S320000, .i32⟩
  | .hbm, ⟨47, _⟩ => ⟨S320000x1, .i32⟩
  | .hbm, ⟨48, _⟩ => ⟨S320000x256, .f32⟩
  | .hbm, ⟨49, _⟩ => ⟨S_, .f32⟩
  | .hbm, ⟨50, _⟩ => ⟨S20000x256, .f32⟩
  | .hbm, ⟨51, _⟩ => ⟨S320000x1, .i32⟩
  | .hbm, ⟨52, _⟩ => ⟨S20000x256, .f32⟩
  | .hbm, ⟨53, _⟩ => ⟨S_, .f32⟩
  | .hbm, ⟨54, _⟩ => ⟨S320000, .f32⟩
  | .hbm, ⟨55, _⟩ => ⟨S_, .f32⟩
  | .hbm, ⟨56, _⟩ => ⟨S20000, .f32⟩
  | .hbm, ⟨57, _⟩ => ⟨S320000x1, .i32⟩
  | .hbm, ⟨58, _⟩ => ⟨S20000, .f32⟩
  | .hbm, ⟨59, _⟩ => ⟨S_, .f32⟩
  | .hbm, ⟨60, _⟩ => ⟨S20000, .f32⟩
  | .hbm, ⟨61, _⟩ => ⟨S20000, .f32⟩
  | .hbm, ⟨62, _⟩ => ⟨S20000x1, .f32⟩
  | .hbm, ⟨63, _⟩ => ⟨S20000x256, .f32⟩
  | .hbm, ⟨64, _⟩ => ⟨S20000x256, .f32⟩
  | .hbm, ⟨65, _⟩ => ⟨S20000x256, .bf16⟩
  | .hbm, ⟨66, _⟩ => ⟨S20000x256, .bf16⟩
  | .hbm, ⟨67, _⟩ => ⟨S256x256, .bf16⟩
  | .hbm, ⟨68, _⟩ => ⟨S256x256, .bf16⟩
  | .hbm, ⟨69, _⟩ => ⟨S1x256, .f32⟩
  | .hbm, ⟨70, _⟩ => ⟨S20000x256, .f32⟩
  | .hbm, ⟨71, _⟩ => ⟨S_, .i32⟩
  | .hbm, ⟨72, _⟩ => ⟨S320000, .i32⟩
  | .hbm, ⟨73, _⟩ => ⟨S320000, .i1⟩
  | .hbm, ⟨74, _⟩ => ⟨S_, .i32⟩
  | .hbm, ⟨75, _⟩ => ⟨S320000, .i32⟩
  | .hbm, ⟨76, _⟩ => ⟨S320000, .i32⟩
  | .hbm, ⟨77, _⟩ => ⟨S320000, .i32⟩
  | .hbm, ⟨78, _⟩ => ⟨S320000x1, .i32⟩
  | .hbm, ⟨79, _⟩ => ⟨S320000x256, .f32⟩
  | .hbm, ⟨80, _⟩ => ⟨S_, .i32⟩
  | .hbm, ⟨81, _⟩ => ⟨S320000, .i32⟩
  | .hbm, ⟨82, _⟩ => ⟨S320000, .i1⟩
  | .hbm, ⟨83, _⟩ => ⟨S_, .i32⟩
  | .hbm, ⟨84, _⟩ => ⟨S320000, .i32⟩
  | .hbm, ⟨85, _⟩ => ⟨S320000, .i32⟩
  | .hbm, ⟨86, _⟩ => ⟨S320000, .i32⟩
  | .hbm, ⟨87, _⟩ => ⟨S320000x1, .i32⟩
  | .hbm, ⟨88, _⟩ => ⟨S320000x256, .f32⟩
  | .hbm, ⟨89, _⟩ => ⟨S320000x256, .f32⟩
  | .hbm, ⟨90, _⟩ => ⟨S_, .f32⟩
  | .hbm, ⟨91, _⟩ => ⟨S320000, .f32⟩
  | .local _ .vmem, ⟨0, _⟩ => ⟨S2000x256, .bf16⟩
  | .local _ .vmem, ⟨1, _⟩ => ⟨S2000x256, .bf16⟩
  | .local _ .vmem, ⟨2, _⟩ => ⟨S2000x256, .bf16⟩
  | .local _ .vmem, ⟨3, _⟩ => ⟨S2000x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_cst_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_10 : Ref sig .tc := ⟨.hbm, 71, rfl⟩
abbrev main_v50 : Ref sig .tc := ⟨.hbm, 72, rfl⟩
abbrev main_v51 : Ref sig .tc := ⟨.hbm, 73, rfl⟩
abbrev main_c_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_c_13 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_14 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bitsLt_bf16_f32 : FTy.bits .bf16 < FTy.bits .f32
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reducesTo_S320000x256_S320000_d1 : S320000x256.ReducesTo [1] S320000
  h_S_ : 0 < S_.numel
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .bf16 = 32 ∨ (Rect.block (s := S20000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S20000x256.size a
  hwx0_1 : ∀ i : grid0.Coords, EltTy.bits .bf16 = 32 ∨ (Rect.block (s := S20000x256) S2000x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .bf16 = 32 ∨ (Rect.block (s := S20000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .bf16 = 32 ∨ (Rect.block (s := S20000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v19) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x256 : Shape := ⟨2, ![20000, 256]⟩
abbrev S320000 : Shape := ⟨1, ![320000]⟩
abbrev S256x256 : Shape := ⟨2, ![256, 256]⟩
abbrev S256 : Shape := ⟨1, ![256]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S1x256 : Shape := ⟨2, ![1, 256]⟩

abbrev nBuf : Space → Nat
  | .hbm => 95
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S320000, .i32⟩
  | .hbm, ⟨2, _⟩ => ⟨S320000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x256, .f32⟩
  | .hbm, ⟨18, _⟩ => ⟨S_, .f32⟩
  | .hbm, ⟨19, _⟩ => ⟨S20000x256, .f32⟩
  | .hbm, ⟨20, _⟩ => ⟨S320000x1, .i32⟩
  | .hbm, ⟨21, _⟩ => ⟨S20000x256, .f32⟩
  | .hbm, ⟨22, _⟩ => ⟨S_, .f32⟩
  | .hbm, ⟨23, _⟩ => ⟨S320000, .f32⟩
  | .hbm, ⟨24, _⟩ => ⟨S_, .f32⟩
  | .hbm, ⟨25, _⟩ => ⟨S20000, .f32⟩
  | .hbm, ⟨26, _⟩ => ⟨S320000x1, .i32⟩
  | .hbm, ⟨27, _⟩ => ⟨S20000, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x256, .f32⟩
  | .hbm, ⟨33, _⟩ => ⟨S20000x256, .f32⟩
  | .hbm, ⟨34, _⟩ => ⟨S20000x256, .f32⟩
  | .hbm, ⟨35, _⟩ => ⟨S20000x256, .f32⟩
  | .hbm, ⟨36, _⟩ => ⟨S20000x256, .f32⟩
  | .hbm, ⟨37, _⟩ => ⟨S1x256, .f32⟩
  | .hbm, ⟨38, _⟩ => ⟨S20000x256, .f32⟩
  | .hbm, ⟨39, _⟩ => ⟨S20000x256, .f32⟩
  | .hbm, ⟨40, _⟩ => ⟨S_, .f32⟩
  | .hbm, ⟨41, _⟩ => ⟨S20000x256, .f32⟩
  | .hbm, ⟨42, _⟩ => ⟨S20000x256, .f32⟩
  | .hbm, ⟨43, _⟩ => ⟨S_, .i32⟩
  | .hbm, ⟨44, _⟩ => ⟨S320000, .i32⟩
  | .hbm, ⟨45, _⟩ => ⟨S320000, .i1⟩
  | .hbm, ⟨46, _⟩ => ⟨S_, .i32⟩
  | .hbm, ⟨47, _⟩ => ⟨S320000, .i32⟩
  | .hbm, ⟨48, _⟩ => ⟨S320000, .i32⟩
  | .hbm, ⟨49, _⟩ => ⟨S320000, .i32⟩
  | .hbm, ⟨50, _⟩ => ⟨S320000x1, .i32⟩
  | .hbm, ⟨51, _⟩ => ⟨S320000x256, .f32⟩
  | .hbm, ⟨52, _⟩ => ⟨S_, .f32⟩
  | .hbm, ⟨53, _⟩ => ⟨S20000x256, .f32⟩
  | .hbm, ⟨54, _⟩ => ⟨S320000x1, .i32⟩
  | .hbm, ⟨55, _⟩ => ⟨S20000x256, .f32⟩
  | .hbm, ⟨56, _⟩ => ⟨S_, .f32⟩
  | .hbm, ⟨57, _⟩ => ⟨S320000, .f32⟩
  | .hbm, ⟨58, _⟩ => ⟨S_, .f32⟩
  | .hbm, ⟨59, _⟩ => ⟨S20000, .f32⟩
  | .hbm, ⟨60, _⟩ => ⟨S320000x1, .i32⟩
  | .hbm, ⟨61, _⟩ => ⟨S20000, .f32⟩
  | .hbm, ⟨62, _⟩ => ⟨S_, .f32⟩
  | .hbm, ⟨63, _⟩ => ⟨S20000, .f32⟩
  | .hbm, ⟨64, _⟩ => ⟨S20000, .f32⟩
  | .hbm, ⟨65, _⟩ => ⟨S20000x1, .f32⟩
  | .hbm, ⟨66, _⟩ => ⟨S20000x256, .f32⟩
  | .hbm, ⟨67, _⟩ => ⟨S20000x256, .f32⟩
  | .hbm, ⟨68, _⟩ => ⟨S20000x256, .f32⟩
  | .hbm, ⟨69, _⟩ => ⟨S20000x256, .f32⟩
  | .hbm, ⟨70, _⟩ => ⟨S20000x256, .f32⟩
  | .hbm, ⟨71, _⟩ => ⟨S1x256, .f32⟩
  | .hbm, ⟨72, _⟩ => ⟨S20000x256, .f32⟩
  | .hbm, ⟨73, _⟩ => ⟨S20000x256, .f32⟩
  | .hbm, ⟨74, _⟩ => ⟨S_, .i32⟩
  | .hbm, ⟨75, _⟩ => ⟨S320000, .i32⟩
  | .hbm, ⟨76, _⟩ => ⟨S320000, .i1⟩
  | .hbm, ⟨77, _⟩ => ⟨S_, .i32⟩
  | .hbm, ⟨78, _⟩ => ⟨S320000, .i32⟩
  | .hbm, ⟨79, _⟩ => ⟨S320000, .i32⟩
  | .hbm, ⟨80, _⟩ => ⟨S320000, .i32⟩
  | .hbm, ⟨81, _⟩ => ⟨S320000x1, .i32⟩
  | .hbm, ⟨82, _⟩ => ⟨S320000x256, .f32⟩
  | .hbm, ⟨83, _⟩ => ⟨S_, .i32⟩
  | .hbm, ⟨84, _⟩ => ⟨S320000, .i32⟩
  | .hbm, ⟨85, _⟩ => ⟨S320000, .i1⟩
  | .hbm, ⟨86, _⟩ => ⟨S_, .i32⟩
  | .hbm, ⟨87, _⟩ => ⟨S320000, .i32⟩
  | .hbm, ⟨88, _⟩ => ⟨S320000, .i32⟩
  | .hbm, ⟨89, _⟩ => ⟨S320000, .i32⟩
  | .hbm, ⟨90, _⟩ => ⟨S320000x1, .i32⟩
  | .hbm, ⟨91, _⟩ => ⟨S320000x256, .f32⟩
  | .hbm, ⟨92, _⟩ => ⟨S320000x256, .f32⟩
  | .hbm, ⟨93, _⟩ => ⟨S_, .f32⟩
  | .hbm, ⟨94, _⟩ => ⟨S320000, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  reducesTo_S320000x256_S320000_d1 : S320000x256.ReducesTo [1] S320000
  h_S_ : 0 < S_.numel
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x256_S20000x256_1_0_0_1_n_n_wf : DotDims.WF S20000x256 S256x256 S20000x256 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf

class Facts : Prop extends Facts₀ where

variable [Facts]
-- ==== Proof.KRun.lean ====
/-
  The whole program's run with its result named.

  The program is three stretches of host operations around two kernel regions. Its run ends with every buffer
  that outlives the regions at the last boundary's contents: the result buffer at what the last stretch leaves in
  it, the nine argument arrays as launched. The launch is the one the frame uses (host stretch, region, host
  stretch, region, host stretch, chained by their boundary contents); only what is read off the final state differs.
-/
import proofs.«101742_j21242908246156_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and the argument arrays as launched. -/
theorem run_result : θ_run defs (onTc (τ := τ) (main (F := F))) ⟨m, fun _ => 0, ρ⟩ (fun r => ∀ c : Dev nD,
      r.2.mem ((c.tc : Thread nD τ).loc main_v65) = W5 m ρ c (Proc.devRef .tc main_v65)
      ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v65 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Hand

end
-- ==== Proof.KBody.lean ====
/-
  What one block of each kernel stores, entry by entry.

  A block is 2000 consecutive rows of the node arrays. The body multiplies the block of `h` by the whole
  `ws`, the block of `hn` by the whole `wn` (each product accumulated from zero, so each is the plain
  sum over the 256 shared indices), adds the two, adds the bias row broadcast down the 2000 rows, and — in
  the first kernel only — takes the maximum with zero.
-/
import proofs.«101742_j21242908246156_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The dimension numbers of a block's product: rows of the left operand against columns of the right. -/
abbrev blockDims : DotDims S2000x256 S256x256 S2000x256 := dot_S2000x256_S256x256_S2000x256_1_0_0_1_n_n

theorem lhs_row (i : S2000x256.Idx) (q : blockDims.contr.Idx) : (blockDims.lhsIdx i q 0).val = (i 0).val := by
  unfold DotDims.lhsIdx
  rw [dif_neg (show ¬(0 : Fin S2000x256.rank) ∈ blockDims.lhsBatch by decide),
    dif_pos (show (0 : Fin S2000x256.rank) ∈ blockDims.lhsNonContracting by decide)]
  rfl
theorem lhs_shared (i : S2000x256.Idx) (q : blockDims.contr.Idx) : (blockDims.lhsIdx i q 1).val = (q ⟨0, by decide⟩).val :=
  blockDims.lhsIdx_val_of_single rfl i q
theorem rhs_shared (i : S2000x256.Idx) (q : blockDims.contr.Idx) : (blockDims.rhsIdx i q 0).val = (q ⟨0, by decide⟩).val :=
  blockDims.rhsIdx_val_of_single rfl i q
theorem rhs_col (i : S2000x256.Idx) (q : blockDims.contr.Idx) : (blockDims.rhsIdx i q 1).val = (i 1).val := by
  unfold DotDims.rhsIdx
  rw [dif_neg (show ¬(1 : Fin S256x256.rank) ∈ blockDims.rhsBatch by decide),
    dif_pos (show (1 : Fin S256x256.rank) ∈ blockDims.rhsNonContracting by decide)]
  rfl

/-- A block's product into the zero accumulator, at row `p` and column `q`: the sum over the shared index. -/
theorem blockDot_apply (x : FVec Ideal S2000x256 .bf16) (w : FVec Ideal S256x256 .bf16) (p : Fin 2000) (q : Fin 256) :
    matmul blockDims none x w (constant (F := Ideal) S2000x256 .f32 0x00000000#32) (ix2 p q)
      = ∑ k : Fin 256, x (ix2 p k) * w (ix2 k q) := by
  simp only [matmul]
  rw [Ideal.matmul_constant_zero_apply, ← Equiv.sum_comp (contrEquiv1 blockDims 256 rfl rfl).symm]
  refine Finset.sum_congr rfl fun k _ => ?_
  have hk := contrEquiv1_symm_val blockDims 256 rfl rfl k
  have el : blockDims.lhsIdx (ix2 p q) ((contrEquiv1 blockDims 256 rfl rfl).symm k) = ix2 p k := funext fun a => Fin.ext (by
    match a with
    | ⟨0, _⟩ => exact lhs_row _ _
    | ⟨1, _⟩ => exact (lhs_shared _ _).trans hk)
  have er : blockDims.rhsIdx (ix2 p q) ((contrEquiv1 blockDims 256 rfl rfl).symm k) = ix2 k q := funext fun a => Fin.ext (by
    match a with
    | ⟨0, _⟩ => exact (rhs_shared _ _).trans hk
    | ⟨1, _⟩ => exact rhs_col _ _)
  rw [el, er]

/-- The bias row broadcast down the block's rows, at row `p` and column `q`: the row's entry at `q`. -/
theorem biasRows_apply (v : FVec Ideal S1x256 .f32) (p : Fin 2000) (q : Fin 256) :
    broadcastTo S2000x256 v broadcasts_S1x256_S2000x256 (ix2 p q) = v (ix2 0 q) :=
  broadcastTo_apply v broadcasts_S1x256_S2000x256 (ix2 p q) (ix2 0 q) (fun a => match a with
    | ⟨0, _⟩ => by show 0 = if (1 : Nat) = 1 then 0 else p.val; rw [if_pos rfl]
    | ⟨1, _⟩ => by show q.val = if (256 : Nat) = 1 then 0 else q.val; rw [if_neg (by decide)])

/-- What the second kernel stores at row `p`, column `q` of a block. -/
theorem pay_affine (x0 x1 : Vec Ideal S2000x256 .bf16) (x2 x3 : Vec Ideal S256x256 .bf16) (x4 : Vec Ideal S1x256 .f32)
    (p : Fin 2000) (q : Fin 256) :
    k1_pay1 (F := Ideal) x0 x1 x2 x3 x4 (ix2 p q)
      = (∑ k : Fin 256, x0 (ix2 p k) * x2 (ix2 k q)) + (∑ k : Fin 256, x1 (ix2 p k) * x3 (ix2 k q)) + x4 (ix2 0 q) := by
  unfold k1_pay1
  simp only [shapeCast_self]
  rw [addf_apply, addf_apply, blockDot_apply, blockDot_apply, biasRows_apply]

/-- What the first kernel stores at row `p`, column `q` of a block: the same, cut off below at zero. -/
theorem pay_relu (x0 x1 : Vec Ideal S2000x256 .bf16) (x2 x3 : Vec Ideal S256x256 .bf16) (x4 : Vec Ideal S1x256 .f32)
    (p : Fin 2000) (q : Fin 256) :
    k0_pay1 (F := Ideal) x0 x1 x2 x3 x4 (ix2 p q)
      = max ((∑ k : Fin 256, x0 (ix2 p k) * x2 (ix2 k q)) + (∑ k : Fin 256, x1 (ix2 p k) * x3 (ix2 k q)) + x4 (ix2 0 q)) 0 := by
  unfold k0_pay1
  simp only [shapeCast_self]
  rw [maximumf_apply, addf_apply, addf_apply, blockDot_apply, blockDot_apply, biasRows_apply, broadcast_apply]
  show max _ (Ideal.ofBits .f32 0x00000000#32) = _
  rw [Ideal.ofBits_zero_f32]

end Cert.KernelIdeal.Hand

end
-- ==== Proof.Layer.lean ====
/-
  One layer of the graph network, entry by entry, on the extended reals.

  A layer takes the node features `h` and the neighbour means `hn` (both 20000 × 256), two weight
  matrices (256 × 256) and a bias row (256), and gives at node `r`, output feature `c`

      ∑ₖ h[r,k] · ws[k,c]  +  ∑ₖ hn[r,k] · wn[k,c]  +  b[c],

  the first layer followed by a maximum with 0. Both programs compute exactly this: one as two
  matrix products per block of 2000 rows added to a broadcast bias row, the other as two whole
  matrix products. Nothing here needs the entries to be finite: only sums and products in a fixed
  order are compared.
-/
import Idealize.ShloMosaic.PureOps.Ideal.Laws
import Idealize.ShloMosaic.Lib.ValueIdx

noncomputable section

open scoped BigOperators

namespace Cert.Sage

open Idealize.ShloMosaic Idealize.ShloMosaic.ValueIdx

/-- The node-feature arrays, the weight matrices and the bias vectors. -/
abbrev Nodes : Shape := ⟨2, ![20000, 256]⟩
abbrev Weights : Shape := ⟨2, ![256, 256]⟩
abbrev Bias : Shape := ⟨1, ![256]⟩

/-- Entry (r, c) of a layer: row `r` of `h` against column `c` of `ws`, plus row `r` of `hn` against column `c`
    of `wn`, plus the bias at `c`. -/
def layerAt (h hn : Nodes.Idx → EReal) (ws wn : Weights.Idx → EReal) (b : Bias.Idx → EReal)
    (r : Fin 20000) (c : Fin 256) : EReal :=
  (∑ k : Fin 256, h (ix2 r k) * ws (ix2 k c)) + (∑ k : Fin 256, hn (ix2 r k) * wn (ix2 k c)) + b (ix1 c)

/-- The second layer: the affine map alone. -/
def layer (h hn : Nodes.Idx → EReal) (ws wn : Weights.Idx → EReal) (b : Bias.Idx → EReal) : Nodes.Idx → EReal :=
  fun i => layerAt h hn ws wn b (i 0) (i 1)

/-- The first layer: the affine map, then the positive part. -/
def layerRelu (h hn : Nodes.Idx → EReal) (ws wn : Weights.Idx → EReal) (b : Bias.Idx → EReal) : Nodes.Idx → EReal :=
  fun i => max (layerAt h hn ws wn b (i 0) (i 1)) 0

end Cert.Sage

end
-- ==== Proof.KBlocks0.lean ====
/-
  Region 0's output array, whole: from blocks to the array.

  The region walks ten blocks of 2000 rows. At block `t` it reads rows 2000·t … 2000·t + 1999 of the two node
  arrays, the whole of both weight matrices and the whole bias row, and writes rows 2000·t … 2000·t + 1999 of the
  output. So what block `t` writes back is block `t` of ONE function of the arrays the region finds at its entry —
  the layer of Layer.lean — and the ten blocks cover all 20000 rows (row `r` lies in block `r / 2000`). Hence the
  output array ends holding that layer of the entry arrays.
-/
import proofs.«101742_j21242908246156_2_alg».proof.Proof.Gen.KernelIdeal.Frame
import proofs.«101742_j21242908246156_2_alg».proof.Proof.KBody
import proofs.«101742_j21242908246156_2_alg».proof.Proof.Layer
import Idealize.ShloMosaic.Lib.Pipeline.Value

set_option maxRecDepth 16384

noncomputable section

open scoped BigOperators

namespace Cert.KernelIdeal.Hand.R0

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the buffer contents the region is entered with
variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point `t`: the two node arrays' and the output's at block row `t`, the
    weights' and the bias row's always at the origin. Decided over the ten points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block `t` of the node features is row 2000·t + p of the array. -/
theorem rows_h (c : Dev nD) (t : Fin cfg0.N) (p : Fin 2000) (k : Fin 256) (r : Fin 20000) (hr : r.val = 2000 * t.val + p.val) :
    (iblk0 V c 0 t : Vec Ideal S2000x256 .bf16) (ix2 p k) = (V c main_v19 : S20000x256.Idx → Elt Ideal .bf16) (ix2 r k) := by
  obtain ⟨e0, e1, -⟩ := block_index t
  unfold iblk0
  rw [View.read_apply]
  show V c main_v19 _ = V c main_v19 _
  refine congrArg _ (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- Row `p` of block `t` of the neighbour means is row 2000·t + p of the array. -/
theorem rows_hn (c : Dev nD) (t : Fin cfg0.N) (p : Fin 2000) (k : Fin 256) (r : Fin 20000) (hr : r.val = 2000 * t.val + p.val) :
    (iblk0 V c 1 t : Vec Ideal S2000x256 .bf16) (ix2 p k) = (V c main_v20 : S20000x256.Idx → Elt Ideal .bf16) (ix2 r k) := by
  obtain ⟨-, -, e0, e1, -⟩ := block_index t
  unfold iblk0
  rw [View.read_apply]
  show V c main_v20 _ = V c main_v20 _
  refine congrArg _ (funext fun a => Fin.ext ?_)
  match a with
  | ⟨0, _⟩ => show win0_1.index t (0 : Fin 2) * 2000 + 1 * p.val = r.val; rw [e0, hr]; omega
  | ⟨1, _⟩ => show win0_1.index t (1 : Fin 2) * 256 + 1 * k.val = k.val; rw [e1]; omega

/-- Every block of the first weight matrix is the whole matrix. -/
theorem whole_ws (c : Dev nD) (t : Fin cfg0.N) (k q : Fin 256) :
    (iblk0 V c 2 t : Vec Ideal S256x256 .bf16) (ix2 k q) = (V c main_v21 : S256x256.Idx → Elt Ideal .bf16) (ix2 k q) := by
  obtain ⟨-, -, -, -, e0, e1, -⟩ := block_index t
  unfold iblk0
  rw [View.read_apply]
  show V c main_v21 _ = V c main_v21 _
  refine congrArg _ (funext fun a => Fin.ext ?_)
  match a with
  | ⟨0, _⟩ => show win0_2.index t (0 : Fin 2) * 256 + 1 * k.val = k.val; rw [e0]; omega
  | ⟨1, _⟩ => show win0_2.index t (1 : Fin 2) * 256 + 1 * q.val = q.val; rw [e1]; omega

/-- Every block of the second weight matrix is the whole matrix. -/
theorem whole_wn (c : Dev nD) (t : Fin cfg0.N) (k q : Fin 256) :
    (iblk0 V c 3 t : Vec Ideal S256x256 .bf16) (ix2 k q) = (V c main_v22 : S256x256.Idx → Elt Ideal .bf16) (ix2 k q) := by
  obtain ⟨-, -, -, -, -, -, e0, e1, -⟩ := block_index t
  unfold iblk0
  rw [View.read_apply]
  show V c main_v22 _ = V c main_v22 _
  refine congrArg _ (funext fun a => Fin.ext ?_)
  match a with
  | ⟨0, _⟩ => show win0_3.index t (0 : Fin 2) * 256 + 1 * k.val = k.val; rw [e0]; omega
  | ⟨1, _⟩ => show win0_3.index t (1 : Fin 2) * 256 + 1 * q.val = q.val; rw [e1]; omega

/-- Every block of the bias row is the whole row. -/
theorem whole_b (c : Dev nD) (t : Fin cfg0.N) (q : Fin 256) :
    (iblk0 V c 4 t : Vec Ideal S1x256 .f32) (ix2 0 q) = (V c main_v23 : S1x256.Idx → Elt Ideal .f32) (ix2 0 q) := by
  obtain ⟨-, -, -, -, -, -, -, -, e0, e1, -⟩ := block_index t
  unfold iblk0
  rw [View.read_apply]
  show V c main_v23 _ = V c main_v23 _
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * q.val = q.val; rw [e1]; omega

/-- The layer of the arrays the region finds at its entry; the bias read off the one-row array. -/
abbrev entryLayer (c : Dev nD) : S20000x256.Idx → EReal :=
  Cert.Sage.layerRelu (V c main_v19 : S20000x256.Idx → Elt Ideal .bf16) (V c main_v20 : S20000x256.Idx → Elt Ideal .bf16)
    (V c main_v21 : S256x256.Idx → Elt Ideal .bf16) (V c main_v22 : S256x256.Idx → Elt Ideal .bf16)
    (fun i => (V c main_v23 : S1x256.Idx → Elt Ideal .f32) (ix2 0 (i 0)))

/-- What block `t` writes back is block `t` of that layer. -/
theorem flushed_eq (c : Dev nD) (t : Fin cfg0.N) :
    (dat0 V c).flushed 5 t = ((cfg0.win 5).blk t).view.read (Elt Ideal) (entryLayer V c) := by
  show (cfg0.win 5).cut (grid0.coords t) ((dat0 V c).after 5 t) = _
  rw [after0_5]
  unfold out0_5
  rw [View.canon_unit_zero origin]
  simp only [View.ld_unit_zero (S := S2000x256) origin, View.ld_unit_zero (S := S256x256) origin, View.ld_unit_zero (S := S1x256) origin]
  funext y
  obtain ⟨p, q, rfl⟩ : ∃ (p : Fin 2000) (q : Fin 256), y = ix2 p q := ⟨y 0, y 1, eq_ix2 y⟩
  refine (pay_relu _ _ _ _ _ p q).trans ?_
  obtain ⟨-, -, -, -, -, -, -, -, -, -, e0, e1⟩ := block_index t
  have hN : cfg0.N = 10 := N_0
  have ht : t.val < 10 := hN ▸ t.isLt
  obtain ⟨r, hr⟩ : ∃ r : Fin 20000, r.val = 2000 * t.val + p.val := ⟨⟨2000 * t.val + p.val, by have := p.isLt; omega⟩, rfl⟩
  have hemb : ((cfg0.win 5).blk t).view.emb (ix2 p q) = ix2 r q := funext fun a => Fin.ext (by
    match a with
    | ⟨0, _⟩ => show win0_5.index t (0 : Fin 2) * 2000 + 1 * p.val = r.val; rw [e0, hr]; omega
    | ⟨1, _⟩ => show win0_5.index t (1 : Fin 2) * 256 + 1 * q.val = q.val; rw [e1]; omega)
  show _ = entryLayer V c (((cfg0.win 5).blk t).view.emb (ix2 p q))
  rw [hemb]
  show _ = max (Cert.Sage.layerAt _ _ _ _ _ r q) 0
  unfold Cert.Sage.layerAt
  simp only [rows_h V c t p _ r hr, rows_hn V c t p _ r hr, whole_ws V c t, whole_wn V c t, whole_b V c t]

/-- Which indices block `t` of the output covers: rows 2000·t … 2000·t + 1999, every column. -/
theorem mem_block (t : Fin cfg0.N) (i : S20000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- Every index of the output lies in some block: row `r` in block `r / 2000`. -/
theorem covered (i : S20000x256.Idx) :
    ∃ t : Fin cfg0.N, (cfg0.win 5).flush t = true ∧ i ∈ ((cfg0.win 5).blk t).view.set := by
  have hN : cfg0.N = 10 := N_0
  have hi0 : (i 0).val < 20000 := (i 0).isLt
  have hi1 : (i 1).val < 256 := (i 1).isLt
  let t : Fin cfg0.N := ⟨(i 0).val / 2000, by rw [hN]; omega⟩
  obtain ⟨-, -, -, -, -, -, -, -, -, -, e0, e1⟩ := block_index t
  have ht : t.val = (i 0).val / 2000 := rfl
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; rw [e0, ht]; omega
  | ⟨1, _⟩ => show win0_5.index t (1 : Fin 2) * 256 ≤ (i 1).val ∧ (i 1).val < win0_5.index t (1 : Fin 2) * 256 + 256; rw [e1]; omega

/-- The output array after the region: the layer of the arrays found at its entry. -/
theorem final (c : Dev nD) : (dat0 V c).arrAt 5 cfg0.N = entryLayer V c :=
  (dat0 V c).arrAt_eq_of_cover 5 (entryLayer V c) (fun t _ => flushed_eq V c t) covered

end Cert.KernelIdeal.Hand.R0

end
-- ==== Proof.KBlocks1.lean ====
/-
  Region 1's output array, whole: from blocks to the array.

  The region walks ten blocks of 2000 rows. At block `t` it reads rows 2000·t … 2000·t + 1999 of the two node
  arrays, the whole of both weight matrices and the whole bias row, and writes rows 2000·t … 2000·t + 1999 of the
  output. So what block `t` writes back is block `t` of ONE function of the arrays the region finds at its entry —
  the layer of Layer.lean — and the ten blocks cover all 20000 rows (row `r` lies in block `r / 2000`). Hence the
  output array ends holding that layer of the entry arrays.
-/
import proofs.«101742_j21242908246156_2_alg».proof.Proof.Gen.KernelIdeal.Frame
import proofs.«101742_j21242908246156_2_alg».proof.Proof.KBody
import proofs.«101742_j21242908246156_2_alg».proof.Proof.Layer
import Idealize.ShloMosaic.Lib.Pipeline.Value

set_option maxRecDepth 16384

noncomputable section

open scoped BigOperators

namespace Cert.KernelIdeal.Hand.R1

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

-- the buffer contents the region is entered with
variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point `t`: the two node arrays' and the output's at block row `t`, the
    weights' and the bias row's always at the origin. Decided over the ten points. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of block `t` of the node features is row 2000·t + p of the array. -/
theorem rows_h (c : Dev nD) (t : Fin cfg1.N) (p : Fin 2000) (k : Fin 256) (r : Fin 20000) (hr : r.val = 2000 * t.val + p.val) :
    (iblk1 V c 0 t : Vec Ideal S2000x256 .bf16) (ix2 p k) = (V c main_v44 : S20000x256.Idx → Elt Ideal .bf16) (ix2 r k) := by
  obtain ⟨e0, e1, -⟩ := block_index t
  unfold iblk1
  rw [View.read_apply]
  show V c main_v44 _ = V c main_v44 _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row `p` of block `t` of the neighbour means is row 2000·t + p of the array. -/
theorem rows_hn (c : Dev nD) (t : Fin cfg1.N) (p : Fin 2000) (k : Fin 256) (r : Fin 20000) (hr : r.val = 2000 * t.val + p.val) :
    (iblk1 V c 1 t : Vec Ideal S2000x256 .bf16) (ix2 p k) = (V c main_v45 : S20000x256.Idx → Elt Ideal .bf16) (ix2 r k) := by
  obtain ⟨-, -, e0, e1, -⟩ := block_index t
  unfold iblk1
  rw [View.read_apply]
  show V c main_v45 _ = V c main_v45 _
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 256 + 1 * k.val = k.val; rw [e1]; omega

/-- Every block of the first weight matrix is the whole matrix. -/
theorem whole_ws (c : Dev nD) (t : Fin cfg1.N) (k q : Fin 256) :
    (iblk1 V c 2 t : Vec Ideal S256x256 .bf16) (ix2 k q) = (V c main_v46 : S256x256.Idx → Elt Ideal .bf16) (ix2 k q) := by
  obtain ⟨-, -, -, -, e0, e1, -⟩ := block_index t
  unfold iblk1
  rw [View.read_apply]
  show V c main_v46 _ = V c main_v46 _
  refine congrArg _ (funext fun a => Fin.ext ?_)
  match a with
  | ⟨0, _⟩ => show win1_2.index t (0 : Fin 2) * 256 + 1 * k.val = k.val; rw [e0]; omega
  | ⟨1, _⟩ => show win1_2.index t (1 : Fin 2) * 256 + 1 * q.val = q.val; rw [e1]; omega

/-- Every block of the second weight matrix is the whole matrix. -/
theorem whole_wn (c : Dev nD) (t : Fin cfg1.N) (k q : Fin 256) :
    (iblk1 V c 3 t : Vec Ideal S256x256 .bf16) (ix2 k q) = (V c main_v47 : S256x256.Idx → Elt Ideal .bf16) (ix2 k q) := by
  obtain ⟨-, -, -, -, -, -, e0, e1, -⟩ := block_index t
  unfold iblk1
  rw [View.read_apply]
  show V c main_v47 _ = V c main_v47 _
  refine congrArg _ (funext fun a => Fin.ext ?_)
  match a with
  | ⟨0, _⟩ => show win1_3.index t (0 : Fin 2) * 256 + 1 * k.val = k.val; rw [e0]; omega
  | ⟨1, _⟩ => show win1_3.index t (1 : Fin 2) * 256 + 1 * q.val = q.val; rw [e1]; omega

/-- Every block of the bias row is the whole row. -/
theorem whole_b (c : Dev nD) (t : Fin cfg1.N) (q : Fin 256) :
    (iblk1 V c 4 t : Vec Ideal S1x256 .f32) (ix2 0 q) = (V c main_v48 : S1x256.Idx → Elt Ideal .f32) (ix2 0 q) := by
  obtain ⟨-, -, -, -, -, -, -, -, e0, e1, -⟩ := block_index t
  unfold iblk1
  rw [View.read_apply]
  show V c main_v48 _ = V c main_v48 _
  refine congrArg _ (funext fun a => Fin.ext ?_)
  match a with
  | ⟨0, _⟩ => show win1_4.index t (0 : Fin 2) * 1 + 1 * 0 = 0; rw [e0]
  | ⟨1, _⟩ => show win1_4.index t (1 : Fin 2) * 256 + 1 * q.val = q.val; rw [e1]; omega

/-- The layer of the arrays the region finds at its entry; the bias read off the one-row array. -/
abbrev entryLayer (c : Dev nD) : S20000x256.Idx → EReal :=
  Cert.Sage.layer (V c main_v44 : S20000x256.Idx → Elt Ideal .bf16) (V c main_v45 : S20000x256.Idx → Elt Ideal .bf16)
    (V c main_v46 : S256x256.Idx → Elt Ideal .bf16) (V c main_v47 : S256x256.Idx → Elt Ideal .bf16)
    (fun i => (V c main_v48 : S1x256.Idx → Elt Ideal .f32) (ix2 0 (i 0)))

/-- What block `t` writes back is block `t` of that layer. -/
theorem flushed_eq (c : Dev nD) (t : Fin cfg1.N) :
    (dat1 V c).flushed 5 t = ((cfg1.win 5).blk t).view.read (Elt Ideal) (entryLayer V c) := by
  show (cfg1.win 5).cut (grid1.coords t) ((dat1 V c).after 5 t) = _
  rw [after1_5]
  unfold out1_5
  rw [View.canon_unit_zero origin]
  simp only [View.ld_unit_zero (S := S2000x256) origin, View.ld_unit_zero (S := S256x256) origin, View.ld_unit_zero (S := S1x256) origin]
  funext y
  obtain ⟨p, q, rfl⟩ : ∃ (p : Fin 2000) (q : Fin 256), y = ix2 p q := ⟨y 0, y 1, eq_ix2 y⟩
  refine (pay_affine _ _ _ _ _ p q).trans ?_
  obtain ⟨-, -, -, -, -, -, -, -, -, -, e0, e1⟩ := block_index t
  have hN : cfg1.N = 10 := N_1
  have ht : t.val < 10 := hN ▸ t.isLt
  obtain ⟨r, hr⟩ : ∃ r : Fin 20000, r.val = 2000 * t.val + p.val := ⟨⟨2000 * t.val + p.val, by have := p.isLt; omega⟩, rfl⟩
  have hemb : ((cfg1.win 5).blk t).view.emb (ix2 p q) = ix2 r q := funext fun a => Fin.ext (by
    match a with
    | ⟨0, _⟩ => show win1_5.index t (0 : Fin 2) * 2000 + 1 * p.val = r.val; rw [e0, hr]; omega
    | ⟨1, _⟩ => show win1_5.index t (1 : Fin 2) * 256 + 1 * q.val = q.val; rw [e1]; omega)
  show _ = entryLayer V c (((cfg1.win 5).blk t).view.emb (ix2 p q))
  rw [hemb]
  show _ = Cert.Sage.layerAt _ _ _ _ _ r q
  unfold Cert.Sage.layerAt
  simp only [rows_h V c t p _ r hr, rows_hn V c t p _ r hr, whole_ws V c t, whole_wn V c t, whole_b V c t]

/-- Which indices block `t` of the output covers: rows 2000·t … 2000·t + 1999, every column. -/
theorem mem_block (t : Fin cfg1.N) (i : S20000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v49).slice (win1_5.rect t)).set ↔ _
  rw [View.set_slice_whole, Rect.mem_set_unit]
  exact Iff.rfl

/-- Every index of the output lies in some block: row `r` in block `r / 2000`. -/
theorem covered (i : S20000x256.Idx) :
    ∃ t : Fin cfg1.N, (cfg1.win 5).flush t = true ∧ i ∈ ((cfg1.win 5).blk t).view.set := by
  have hN : cfg1.N = 10 := N_1
  have hi0 : (i 0).val < 20000 := (i 0).isLt
  have hi1 : (i 1).val < 256 := (i 1).isLt
  let t : Fin cfg1.N := ⟨(i 0).val / 2000, by rw [hN]; omega⟩
  obtain ⟨-, -, -, -, -, -, -, -, -, -, e0, e1⟩ := block_index t
  have ht : t.val = (i 0).val / 2000 := rfl
  refine ⟨t, flush1_5 t, ?_⟩
  rw [mem_block]
  intro a
  match a with
  | ⟨0, _⟩ => show win1_5.index t (0 : Fin 2) * 2000 ≤ (i 0).val ∧ (i 0).val < win1_5.index t (0 : Fin 2) * 2000 + 2000; rw [e0, ht]; omega
  | ⟨1, _⟩ => show win1_5.index t (1 : Fin 2) * 256 ≤ (i 1).val ∧ (i 1).val < win1_5.index t (1 : Fin 2) * 256 + 256; rw [e1]; omega

/-- The output array after the region: the layer of the arrays found at its entry. -/
theorem final (c : Dev nD) : (dat1 V c).arrAt 5 cfg1.N = entryLayer V c :=
  (dat1 V c).arrAt_eq_of_cover 5 (entryLayer V c) (fun t _ => flushed_eq V c t) covered

end Cert.KernelIdeal.Hand.R1

end
-- ==== Proof.RefShape.lean ====
/-
  The reference program's result as one composition, and its layers entry by entry.

  The reference's result is a composition of three kinds of pieces: a MEAN AGGREGATION (gather the rows of the
  node features at the edges' sources, add them up per destination node, divide by the in-degree or by 1), a LAYER
  (two matrix products, a sum, a bias — twice, the first followed by the positive part), and the edge SCORE (the
  dot product of the two end nodes' rows). The aggregation and the score are the same host operations in both
  programs and are carried here as opaque functions; only the layers are opened, and each is the layer of
  Layer.lean entry by entry.
-/
import proofs.«101742_j21242908246156_2_alg».proof.Proof.Gen.ReferenceIdeal.Run
import proofs.«101742_j21242908246156_2_alg».proof.Proof.Layer
import Idealize.ShloMosaic.Lib.Pipeline.Value
import Idealize.ShloMosaic.Lib.ValueIdx
import Idealize.ShloMosaic.PureOps.Ideal.Laws

noncomputable section

open scoped BigOperators

namespace Cert.ReferenceIdeal.Hand

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

abbrev NodeArr : Type := FVec Ideal S20000x256 .f32
abbrev WeightArr : Type := FVec Ideal S256x256 .f32
abbrev BiasArr : Type := FVec Ideal S256 .f32
abbrev EdgeEnds : Type := IVec S320000 32
abbrev EdgeVals : Type := FVec Ideal S320000 .f32

/-- An edge list's node numbers as gather indices: a negative number counts from the end (20000 is added), and the
    list becomes a column. -/
def asRows (e : EdgeEnds) : IVec S320000x1 32 :=
  broadcastInDim S320000x1 ![0] bcast_S320000_S320000x1_0 (select (cmpi .slt e (broadcastInDim S320000 ![] bcast_S_S320000 (constantI S_ 32 0#32))) (addi e (broadcastInDim S320000 ![] bcast_S_S320000 (constantI S_ 32 20000#32))) e)

/-- The mean of the source rows over each destination node's incoming edges (the sum divided by the larger of the
    in-degree and 1). -/
def meanAgg (h : NodeArr) (src dst : EdgeEnds) : NodeArr :=
  Host.divf (F := Ideal) (Host.scatterAdd (F := Ideal) scatter_S20000x256_S320000x1_S320000x256_1_0_0_1 (broadcastInDim S20000x256 ![] bcast_S_S20000x256 (constant (F := Ideal) S_ .f32 0x00000000#32)) (broadcastInDim S320000x1 ![0] bcast_S320000_S320000x1_0 dst) (Host.gather gather_S20000x256_S320000x1_S320000x256_1_0_n_n_0_1_1256 h (asRows src))) (broadcastInDim S20000x256 ![0, 1] bcast_S20000x1_S20000x256_0_1 (broadcastInDim S20000x1 ![0] bcast_S20000_S20000x1_0 (maximumf (Host.scatterAdd (F := Ideal) scatter_S20000_S320000x1_S320000_n_0_0_1 (broadcastInDim S20000 ![] bcast_S_S20000 (constant (F := Ideal) S_ .f32 0x00000000#32)) (broadcastInDim S320000x1 ![0] bcast_S320000_S320000x1_0 dst) (broadcastInDim S320000 ![] bcast_S_S320000 (constant (F := Ideal) S_ .f32 0x3F800000#32))) (broadcastInDim S20000 ![] bcast_S_S20000 (constant (F := Ideal) S_ .f32 0x3F800000#32)))))

/-- Each edge's score: the dot product of its two end nodes' rows. -/
def score (h : NodeArr) (src dst : EdgeEnds) : EdgeVals :=
  Host.reduceAdd (F := Ideal) (mulf (Host.gather gather_S20000x256_S320000x1_S320000x256_1_0_n_n_0_1_1256 h (asRows src)) (Host.gather gather_S20000x256_S320000x1_S320000x256_1_0_n_n_0_1_1256 h (asRows dst))) (constant (F := Ideal) S_ .f32 0x00000000#32) reducesTo_S320000x256_S320000_d1 h_S_

/-- The network over any two layer functions: aggregate, first layer, aggregate again, second layer, score. -/
def network (L1 L2 : NodeArr → NodeArr → WeightArr → WeightArr → BiasArr → NodeArr)
    (x : NodeArr) (src dst : EdgeEnds) (ws1 wn1 : WeightArr) (b1 : BiasArr) (ws2 wn2 : WeightArr) (b2 : BiasArr) : EdgeVals :=
  score (L2 (L1 x (meanAgg x src dst) ws1 wn1 b1) (meanAgg (L1 x (meanAgg x src dst) ws1 wn1 b1) src dst) ws2 wn2 b2) src dst

/-- The reference's second layer as it computes it: two whole matrix products, their sum, the bias broadcast over
    the rows. -/
def hostLayer (h hn : NodeArr) (ws wn : WeightArr) (b : BiasArr) : NodeArr :=
  addf (addf (Host.dotGeneral (F := Ideal) dot_S20000x256_S256x256_S20000x256_1_0_0_1_n_n none h ws) (Host.dotGeneral (F := Ideal) dot_S20000x256_S256x256_S20000x256_1_0_0_1_n_n none hn wn)) (broadcastInDim S20000x256 ![0, 1] bcast_S1x256_S20000x256_0_1 (broadcastInDim S1x256 ![1] bcast_S256_S1x256_1 b))

/-- Its first layer: the same, then the maximum with the zero array. -/
def hostLayerRelu (h hn : NodeArr) (ws wn : WeightArr) (b : BiasArr) : NodeArr :=
  maximumf (hostLayer h hn ws wn b) (broadcastInDim S20000x256 ![] bcast_S_S20000x256 (constant (F := Ideal) S_ .f32 0x00000000#32))

set_option maxRecDepth 8192 in
/-- The reference's result term is the network over its own two layers. -/
theorem result_shape (m : (ℓ : Loc nD τ sig) → Buf (Elt Ideal) ℓ) (c : Dev nD) :
    res_main_v66 (F := Ideal) m c
      = network hostLayerRelu hostLayer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold res_main_v66 network score meanAgg asRows hostLayerRelu hostLayer
  rfl

/-! ## The layers, entry by entry -/

abbrev wholeDims : DotDims S20000x256 S256x256 S20000x256 := dot_S20000x256_S256x256_S20000x256_1_0_0_1_n_n

theorem lhs_row (i : S20000x256.Idx) (q : wholeDims.contr.Idx) : (wholeDims.lhsIdx i q 0).val = (i 0).val := by
  unfold DotDims.lhsIdx
  rw [dif_neg (show ¬(0 : Fin S20000x256.rank) ∈ wholeDims.lhsBatch by decide),
    dif_pos (show (0 : Fin S20000x256.rank) ∈ wholeDims.lhsNonContracting by decide)]
  rfl
theorem lhs_shared (i : S20000x256.Idx) (q : wholeDims.contr.Idx) : (wholeDims.lhsIdx i q 1).val = (q ⟨0, by decide⟩).val :=
  wholeDims.lhsIdx_val_of_single rfl i q
theorem rhs_shared (i : S20000x256.Idx) (q : wholeDims.contr.Idx) : (wholeDims.rhsIdx i q 0).val = (q ⟨0, by decide⟩).val :=
  wholeDims.rhsIdx_val_of_single rfl i q
theorem rhs_col (i : S20000x256.Idx) (q : wholeDims.contr.Idx) : (wholeDims.rhsIdx i q 1).val = (i 1).val := by
  unfold DotDims.rhsIdx
  rw [dif_neg (show ¬(1 : Fin S256x256.rank) ∈ wholeDims.rhsBatch by decide),
    dif_pos (show (1 : Fin S256x256.rank) ∈ wholeDims.rhsNonContracting by decide)]
  rfl

/-- A whole matrix product at row `r`, column `c`: the sum over the shared index. -/
theorem wholeDot_apply (x : NodeArr) (w : WeightArr) (r : Fin 20000) (c : Fin 256) :
    Host.dotGeneral (F := Ideal) wholeDims none x w (ix2 r c) = ∑ k : Fin 256, x (ix2 r k) * w (ix2 k c) := by
  simp only [Host.dotGeneral]
  rw [Ideal.dotGeneral_apply, ← Equiv.sum_comp (contrEquiv1 wholeDims 256 rfl rfl).symm]
  refine Finset.sum_congr rfl fun k _ => ?_
  have hk := contrEquiv1_symm_val wholeDims 256 rfl rfl k
  have el : wholeDims.lhsIdx (ix2 r c) ((contrEquiv1 wholeDims 256 rfl rfl).symm k) = ix2 r k := funext fun a => Fin.ext (by
    match a with
    | ⟨0, _⟩ => exact lhs_row _ _
    | ⟨1, _⟩ => exact (lhs_shared _ _).trans hk)
  have er : wholeDims.rhsIdx (ix2 r c) ((contrEquiv1 wholeDims 256 rfl rfl).symm k) = ix2 k c := funext fun a => Fin.ext (by
    match a with
    | ⟨0, _⟩ => exact (rhs_shared _ _).trans hk
    | ⟨1, _⟩ => exact rhs_col _ _)
  rw [el, er]

/-- The bias made a row and broadcast over the nodes, at row `r`, column `c`: the bias at `c`. -/
theorem biasAll_apply (b : BiasArr) (r : Fin 20000) (c : Fin 256) :
    broadcastInDim S20000x256 ![0, 1] bcast_S1x256_S20000x256_0_1 (broadcastInDim S1x256 ![1] bcast_S256_S1x256_1 b) (ix2 r c) = b (ix1 c) := by
  have e1 : broadcastInDim S20000x256 ![0, 1] bcast_S1x256_S20000x256_0_1 (broadcastInDim S1x256 ![1] bcast_S256_S1x256_1 b) (ix2 r c)
      = broadcastInDim S1x256 ![1] bcast_S256_S1x256_1 b (ix2 0 c) :=
    broadcastInDim_apply _ bcast_S1x256_S20000x256_0_1 _ (ix2 r c) (ix2 0 c) (fun a => match a with
      | ⟨0, _⟩ => by show 0 = if (1 : Nat) = 1 then 0 else r.val; rw [if_pos rfl]
      | ⟨1, _⟩ => by show c.val = if (256 : Nat) = 1 then 0 else c.val; rw [if_neg (by decide)])
  have e2 : broadcastInDim S1x256 ![1] bcast_S256_S1x256_1 b (ix2 0 c) = b (ix1 c) :=
    broadcastInDim_apply _ bcast_S256_S1x256_1 b (ix2 0 c) (ix1 c) (fun a => match a with
      | ⟨0, _⟩ => by show c.val = if (256 : Nat) = 1 then 0 else c.val; rw [if_neg (by decide)])
  exact e1.trans e2

/-- The reference's second layer is the layer. -/
theorem hostLayer_eq (h hn : NodeArr) (ws wn : WeightArr) (b : BiasArr) :
    hostLayer h hn ws wn b = Cert.Sage.layer h hn ws wn b := by
  funext i
  obtain ⟨r, c, rfl⟩ : ∃ (r : Fin 20000) (c : Fin 256), i = ix2 r c := ⟨i 0, i 1, eq_ix2 i⟩
  unfold hostLayer
  rw [addf_apply, addf_apply, wholeDot_apply, wholeDot_apply, biasAll_apply]
  rfl

/-- The reference's first layer is the layer followed by the positive part. -/
theorem hostLayerRelu_eq (h hn : NodeArr) (ws wn : WeightArr) (b : BiasArr) :
    hostLayerRelu h hn ws wn b = Cert.Sage.layerRelu h hn ws wn b := by
  funext i
  obtain ⟨r, c, rfl⟩ : ∃ (r : Fin 20000) (c : Fin 256), i = ix2 r c := ⟨i 0, i 1, eq_ix2 i⟩
  unfold hostLayerRelu
  rw [maximumf_apply, hostLayer_eq]
  have ez : broadcastInDim S20000x256 ![] bcast_S_S20000x256 (constant (F := Ideal) S_ .f32 0x00000000#32) (ix2 r c) = 0 := by
    rw [broadcastInDim_apply _ bcast_S_S20000x256 _ (ix2 r c) ix0 (fun a => a.elim0)]
    show Ideal.ofBits .f32 0x00000000#32 = 0
    exact Ideal.ofBits_zero_f32
  rw [ez]
  rfl

/-- The reference's result: the network over the two layers of Layer.lean. -/
theorem result_eq (m : (ℓ : Loc nD τ sig) → Buf (Elt Ideal) ℓ) (c : Dev nD) :
    res_main_v66 (F := Ideal) m c
      = network Cert.Sage.layerRelu Cert.Sage.layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  rw [result_shape]
  have e1 : hostLayerRelu = Cert.Sage.layerRelu := funext fun h => funext fun hn => funext fun ws => funext fun wn => funext fun b => hostLayerRelu_eq h hn ws wn b
  have e2 : hostLayer = Cert.Sage.layer := funext fun h => funext fun hn => funext fun ws => funext fun wn => funext fun b => hostLayer_eq h hn ws wn b
  rw [e1, e2]

end Cert.ReferenceIdeal.Hand

end
-- ==== Proof.KSpell.lean ====
/-
  The shared host operations, spelt over the kernel program's own dimension records.

  The mean aggregation and the edge score are the same StableHLO operations in both programs; each program prints
  them over its own copy of the gather / scatter dimension numbers and shape names. Here the kernel program's
  spelling of each is shown to be the reference's function (the two copies of the records have the same fields),
  over arbitrary arrays — so that no later step ever compares the two spellings on the program's actual buffers.
  A change of float format is the identity on extended reals.
-/
import proofs.«101742_j21242908246156_2_alg».proof.Proof.Gen.KernelIdeal
import proofs.«101742_j21242908246156_2_alg».proof.Proof.RefShape

noncomputable section

namespace Cert.KernelIdeal.Hand

open Cert.KernelIdeal Cert.KernelIdeal.Gen Idealize.ShloMosaic

theorem gatherDims_eq : gather_S20000x256_S320000x1_S320000x256_1_0_n_n_0_1_1256 = Cert.ReferenceIdeal.gather_S20000x256_S320000x1_S320000x256_1_0_n_n_0_1_1256 := rfl
theorem scatterRows_eq : scatter_S20000x256_S320000x1_S320000x256_1_0_0_1 = Cert.ReferenceIdeal.scatter_S20000x256_S320000x1_S320000x256_1_0_0_1 := rfl
theorem scatterOnes_eq : scatter_S20000_S320000x1_S320000_n_0_0_1 = Cert.ReferenceIdeal.scatter_S20000_S320000x1_S320000_n_0_0_1 := rfl

/-- The kernel program's mean aggregation is the reference's. -/
theorem agg_spelling (h : FVec Ideal S20000x256 .f32) (src dst : IVec S320000 32) :
    Host.divf (F := Ideal) (Host.scatterAdd (F := Ideal) scatter_S20000x256_S320000x1_S320000x256_1_0_0_1 (broadcastInDim S20000x256 ![] bcast_S_S20000x256 (constant (F := Ideal) S_ .f32 0x00000000#32)) (broadcastInDim S320000x1 ![0] bcast_S320000_S320000x1_0 dst) (Host.gather gather_S20000x256_S320000x1_S320000x256_1_0_n_n_0_1_1256 h (broadcastInDim S320000x1 ![0] bcast_S320000_S320000x1_0 (select (cmpi .slt src (broadcastInDim S320000 ![] bcast_S_S320000 (constantI S_ 32 0#32))) (addi src (broadcastInDim S320000 ![] bcast_S_S320000 (constantI S_ 32 20000#32))) src)))) (broadcastInDim S20000x256 ![0, 1] bcast_S20000x1_S20000x256_0_1 (broadcastInDim S20000x1 ![0] bcast_S20000_S20000x1_0 (maximumf (Host.scatterAdd (F := Ideal) scatter_S20000_S320000x1_S320000_n_0_0_1 (broadcastInDim S20000 ![] bcast_S_S20000 (constant (F := Ideal) S_ .f32 0x00000000#32)) (broadcastInDim S320000x1 ![0] bcast_S320000_S320000x1_0 dst) (broadcastInDim S320000 ![] bcast_S_S320000 (constant (F := Ideal) S_ .f32 0x3F800000#32))) (broadcastInDim S20000 ![] bcast_S_S20000 (constant (F := Ideal) S_ .f32 0x3F800000#32)))))
      = Cert.ReferenceIdeal.Hand.meanAgg h src dst := by
  rw [gatherDims_eq, scatterRows_eq, scatterOnes_eq]
  rfl

/-- The kernel program's edge score is the reference's. -/
theorem score_spelling (h : FVec Ideal S20000x256 .f32) (src dst : IVec S320000 32) :
    Host.reduceAdd (F := Ideal) (mulf (Host.gather gather_S20000x256_S320000x1_S320000x256_1_0_n_n_0_1_1256 h (broadcastInDim S320000x1 ![0] bcast_S320000_S320000x1_0 (select (cmpi .slt src (broadcastInDim S320000 ![] bcast_S_S320000 (constantI S_ 32 0#32))) (addi src (broadcastInDim S320000 ![] bcast_S_S320000 (constantI S_ 32 20000#32))) src))) (Host.gather gather_S20000x256_S320000x1_S320000x256_1_0_n_n_0_1_1256 h (broadcastInDim S320000x1 ![0] bcast_S320000_S320000x1_0 (select (cmpi .slt dst (broadcastInDim S320000 ![] bcast_S_S320000 (constantI S_ 32 0#32))) (addi dst (broadcastInDim S320000 ![] bcast_S_S320000 (constantI S_ 32 20000#32))) dst)))) (constant (F := Ideal) S_ .f32 0x00000000#32) reducesTo_S320000x256_S320000_d1 h_S_
      = Cert.ReferenceIdeal.Hand.score h src dst := by
  rw [gatherDims_eq]
  rfl

/-- Narrowing the float format changes no entry. -/
theorem format_id {s : Shape} (x : FVec Ideal s .f32) : (truncf .bf16 x bitsLt_bf16_f32 : s.Idx → EReal) = x := rfl

end Cert.KernelIdeal.Hand

end
-- ==== Proof.KValue.lean ====
/-
  The kernel program's result, read through its five segments.

  The first host stretch prepares region 0's operands from the arguments: the node features and the weights as they
  are (the change of float format is the identity on extended reals), the neighbour means by the mean aggregation,
  the bias as a one-row array. Region 0 leaves the first layer of those in its output array (KBlocks0). The second
  stretch prepares region 1's operands the same way from that array; region 1 leaves the second layer (KBlocks1).
  The last stretch scores the edges on it. The host operations of the aggregation and of the score are the
  reference's own, so the whole is the reference's composition over the two layers of Layer.lean.
-/
import proofs.«101742_j21242908246156_2_alg».proof.Proof.Gen.KernelIdeal.Frame
import proofs.«101742_j21242908246156_2_alg».proof.Proof.KBlocks0
import proofs.«101742_j21242908246156_2_alg».proof.Proof.KBlocks1
import proofs.«101742_j21242908246156_2_alg».proof.Proof.RefShape
import proofs.«101742_j21242908246156_2_alg».proof.Proof.KSpell
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A length-256 vector recast as a one-row array, read back along its row, is the vector. -/
theorem row_of_reshape (b : FVec Ideal S256 .f32) :
    (fun i : S256.Idx => shapeCast S1x256 b shapeCasts_S256_S1x256 (ix2 0 (i 0))) = b := by
  funext i
  obtain ⟨q, rfl⟩ : ∃ q : Fin 256, i = ix1 q := ⟨i 0, eq_ix1 i⟩
  exact shapeCast_apply b shapeCasts_S256_S1x256 (ix2 0 q) (ix1 q) (by
    rw [Shape.rowMajor_val_one, Shape.rowMajor_val_two]
    show q.val = 0 * 256 + q.val
    omega)

/-! ## Region 0's operands, from the arguments -/

theorem in0_h : (V1 m ρ c main_v19 : S20000x256.Idx → EReal) = (m ((c.tc : Thread nD τ).loc main_arg0)) := by
  show StableHlo.after hostOps0 (W0 m ρ c) (Proc.devRef .tc main_v19) = _
  after_results
  rfl
set_option maxHeartbeats 4000000 in
theorem in0_hn : (V1 m ρ c main_v20 : S20000x256.Idx → EReal) = Cert.ReferenceIdeal.Hand.meanAgg (m ((c.tc : Thread nD τ).loc main_arg0)) (m ((c.tc : Thread nD τ).loc main_arg1)) (m ((c.tc : Thread nD τ).loc main_arg2)) := by
  show StableHlo.after hostOps0 (W0 m ρ c) (Proc.devRef .tc main_v20) = _
  after_results_simp
  show truncf .bf16 (Host.divf (F := Ideal) (Host.scatterAdd (F := Ideal) scatter_S20000x256_S320000x1_S320000x256_1_0_0_1 (broadcastInDim S20000x256 ![] bcast_S_S20000x256 (constant (F := Ideal) S_ .f32 0x00000000#32)) (broadcastInDim S320000x1 ![0] bcast_S320000_S320000x1_0 (m ((c.tc : Thread nD τ).loc main_arg2))) (Host.gather gather_S20000x256_S320000x1_S320000x256_1_0_n_n_0_1_1256 (m ((c.tc : Thread nD τ).loc main_arg0)) (broadcastInDim S320000x1 ![0] bcast_S320000_S320000x1_0 (select (cmpi .slt (m ((c.tc : Thread nD τ).loc main_arg1)) (broadcastInDim S320000 ![] bcast_S_S320000 (constantI S_ 32 0#32))) (addi (m ((c.tc : Thread nD τ).loc main_arg1)) (broadcastInDim S320000 ![] bcast_S_S320000 (constantI S_ 32 20000#32))) (m ((c.tc : Thread nD τ).loc main_arg1)))))) (broadcastInDim S20000x256 ![0, 1] bcast_S20000x1_S20000x256_0_1 (broadcastInDim S20000x1 ![0] bcast_S20000_S20000x1_0 (maximumf (Host.scatterAdd (F := Ideal) scatter_S20000_S320000x1_S320000_n_0_0_1 (broadcastInDim S20000 ![] bcast_S_S20000 (constant (F := Ideal) S_ .f32 0x00000000#32)) (broadcastInDim S320000x1 ![0] bcast_S320000_S320000x1_0 (m ((c.tc : Thread nD τ).loc main_arg2))) (broadcastInDim S320000 ![] bcast_S_S320000 (constant (F := Ideal) S_ .f32 0x3F800000#32))) (broadcastInDim S20000 ![] bcast_S_S20000 (constant (F := Ideal) S_ .f32 0x3F800000#32)))))) bitsLt_bf16_f32 = _
  exact (format_id _).trans (agg_spelling _ _ _)
theorem in0_ws : (V1 m ρ c main_v21 : S256x256.Idx → EReal) = (m ((c.tc : Thread nD τ).loc main_arg3)) := by
  show StableHlo.after hostOps0 (W0 m ρ c) (Proc.devRef .tc main_v21) = _
  after_results
  rfl
theorem in0_wn : (V1 m ρ c main_v22 : S256x256.Idx → EReal) = (m ((c.tc : Thread nD τ).loc main_arg4)) := by
  show StableHlo.after hostOps0 (W0 m ρ c) (Proc.devRef .tc main_v22) = _
  after_results
  rfl
theorem in0_b : (fun i : S256.Idx => (V1 m ρ c main_v23 : S1x256.Idx → EReal) (ix2 0 (i 0))) = (m ((c.tc : Thread nD τ).loc main_arg5)) := by
  have e : (V1 m ρ c main_v23 : S1x256.Idx → EReal) = shapeCast S1x256 (m ((c.tc : Thread nD τ).loc main_arg5)) shapeCasts_S256_S1x256 := by
    show StableHlo.after hostOps0 (W0 m ρ c) (Proc.devRef .tc main_v23) = _
    after_results
    rfl
  rw [e]
  exact row_of_reshape _

/-- Region 0's output array after the region: the first layer of the features and their neighbour means. -/
theorem hidden : (W2 m ρ c (Proc.devRef .tc main_v24) : S20000x256.Idx → EReal)
    = Cert.Sage.layerRelu (m ((c.tc : Thread nD τ).loc main_arg0)) (Cert.ReferenceIdeal.Hand.meanAgg (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) := by
  refine (W2_arr m ρ c 5).trans ((R0.final (V1 m ρ) c).trans ?_)
  show Cert.Sage.layerRelu (V1 m ρ c main_v19 : S20000x256.Idx → EReal) (V1 m ρ c main_v20 : S20000x256.Idx → EReal)
    (V1 m ρ c main_v21 : S256x256.Idx → EReal) (V1 m ρ c main_v22 : S256x256.Idx → EReal)
    (fun i : S256.Idx => (V1 m ρ c main_v23 : S1x256.Idx → EReal) (ix2 0 (i 0))) = _
  rw [in0_h, in0_hn, in0_ws, in0_wn, in0_b]

/-! ## The arguments at region 0's exit: no host operation and no region has written one -/

theorem kept2_1 : W2 m ρ c (Proc.devRef .tc main_arg1) = (m ((c.tc : Thread nD τ).loc main_arg1)) :=
  (W2_of_ne m ρ c main_arg1 (by decide)).trans (by
    show StableHlo.after hostOps0 (W0 m ρ c) (Proc.devRef .tc main_arg1) = _
    after_results)
theorem kept2_2 : W2 m ρ c (Proc.devRef .tc main_arg2) = (m ((c.tc : Thread nD τ).loc main_arg2)) :=
  (W2_of_ne m ρ c main_arg2 (by decide)).trans (by
    show StableHlo.after hostOps0 (W0 m ρ c) (Proc.devRef .tc main_arg2) = _
    after_results)
theorem kept2_6 : W2 m ρ c (Proc.devRef .tc main_arg6) = (m ((c.tc : Thread nD τ).loc main_arg6)) :=
  (W2_of_ne m ρ c main_arg6 (by decide)).trans (by
    show StableHlo.after hostOps0 (W0 m ρ c) (Proc.devRef .tc main_arg6) = _
    after_results)
theorem kept2_7 : W2 m ρ c (Proc.devRef .tc main_arg7) = (m ((c.tc : Thread nD τ).loc main_arg7)) :=
  (W2_of_ne m ρ c main_arg7 (by decide)).trans (by
    show StableHlo.after hostOps0 (W0 m ρ c) (Proc.devRef .tc main_arg7) = _
    after_results)
theorem kept2_8 : W2 m ρ c (Proc.devRef .tc main_arg8) = (m ((c.tc : Thread nD τ).loc main_arg8)) :=
  (W2_of_ne m ρ c main_arg8 (by decide)).trans (by
    show StableHlo.after hostOps0 (W0 m ρ c) (Proc.devRef .tc main_arg8) = _
    after_results)

/-! ## Region 1's operands, from region 0's output and the arguments -/

theorem in1_h : (V3 m ρ c main_v44 : S20000x256.Idx → EReal) = (W2 m ρ c (Proc.devRef .tc main_v24) : S20000x256.Idx → EReal) := by
  show StableHlo.after hostOps1 (W2 m ρ c) (Proc.devRef .tc main_v44) = _
  after_results
  rfl
set_option maxHeartbeats 4000000 in
theorem in1_hn : (V3 m ρ c main_v45 : S20000x256.Idx → EReal)
    = Cert.ReferenceIdeal.Hand.meanAgg (W2 m ρ c (Proc.devRef .tc main_v24) : S20000x256.Idx → EReal) (W2 m ρ c (Proc.devRef .tc main_arg1)) (W2 m ρ c (Proc.devRef .tc main_arg2)) := by
  show StableHlo.after hostOps1 (W2 m ρ c) (Proc.devRef .tc main_v45) = _
  after_results_simp
  show truncf .bf16 (Host.divf (F := Ideal) (Host.scatterAdd (F := Ideal) scatter_S20000x256_S320000x1_S320000x256_1_0_0_1 (broadcastInDim S20000x256 ![] bcast_S_S20000x256 (constant (F := Ideal) S_ .f32 0x00000000#32)) (broadcastInDim S320000x1 ![0] bcast_S320000_S320000x1_0 (W2 m ρ c (Proc.devRef .tc main_arg2))) (Host.gather gather_S20000x256_S320000x1_S320000x256_1_0_n_n_0_1_1256 (W2 m ρ c (Proc.devRef .tc main_v24)) (broadcastInDim S320000x1 ![0] bcast_S320000_S320000x1_0 (select (cmpi .slt (W2 m ρ c (Proc.devRef .tc main_arg1)) (broadcastInDim S320000 ![] bcast_S_S320000 (constantI S_ 32 0#32))) (addi (W2 m ρ c (Proc.devRef .tc main_arg1)) (broadcastInDim S320000 ![] bcast_S_S320000 (constantI S_ 32 20000#32))) (W2 m ρ c (Proc.devRef .tc main_arg1)))))) (broadcastInDim S20000x256 ![0, 1] bcast_S20000x1_S20000x256_0_1 (broadcastInDim S20000x1 ![0] bcast_S20000_S20000x1_0 (maximumf (Host.scatterAdd (F := Ideal) scatter_S20000_S320000x1_S320000_n_0_0_1 (broadcastInDim S20000 ![] bcast_S_S20000 (constant (F := Ideal) S_ .f32 0x00000000#32)) (broadcastInDim S320000x1 ![0] bcast_S320000_S320000x1_0 (W2 m ρ c (Proc.devRef .tc main_arg2))) (broadcastInDim S320000 ![] bcast_S_S320000 (constant (F := Ideal) S_ .f32 0x3F800000#32))) (broadcastInDim S20000 ![] bcast_S_S20000 (constant (F := Ideal) S_ .f32 0x3F800000#32)))))) bitsLt_bf16_f32 = _
  exact (format_id _).trans (agg_spelling _ _ _)
theorem in1_ws : (V3 m ρ c main_v46 : S256x256.Idx → EReal) = (W2 m ρ c (Proc.devRef .tc main_arg6) : S256x256.Idx → EReal) := by
  show StableHlo.after hostOps1 (W2 m ρ c) (Proc.devRef .tc main_v46) = _
  after_results
  rfl
theorem in1_wn : (V3 m ρ c main_v47 : S256x256.Idx → EReal) = (W2 m ρ c (Proc.devRef .tc main_arg7) : S256x256.Idx → EReal) := by
  show StableHlo.after hostOps1 (W2 m ρ c) (Proc.devRef .tc main_v47) = _
  after_results
  rfl
theorem in1_b : (fun i : S256.Idx => (V3 m ρ c main_v48 : S1x256.Idx → EReal) (ix2 0 (i 0))) = (W2 m ρ c (Proc.devRef .tc main_arg8) : S256.Idx → EReal) := by
  have e : (V3 m ρ c main_v48 : S1x256.Idx → EReal) = shapeCast S1x256 (W2 m ρ c (Proc.devRef .tc main_arg8) : S256.Idx → EReal) shapeCasts_S256_S1x256 := by
    show StableHlo.after hostOps1 (W2 m ρ c) (Proc.devRef .tc main_v48) = _
    after_results
    rfl
  rw [e]
  exact row_of_reshape _

/-- The first layer's output, named. -/
abbrev hiddenVal : S20000x256.Idx → EReal :=
  Cert.Sage.layerRelu (m ((c.tc : Thread nD τ).loc main_arg0)) (Cert.ReferenceIdeal.Hand.meanAgg (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5))

/-- Region 1's output array after the region: the second layer of the hidden features and their neighbour means. -/
theorem embedded : (W4 m ρ c (Proc.devRef .tc main_v49) : S20000x256.Idx → EReal)
    = Cert.Sage.layer (hiddenVal m c) (Cert.ReferenceIdeal.Hand.meanAgg (hiddenVal m c) (m ((c.tc : Thread nD τ).loc main_arg1)) (m ((c.tc : Thread nD τ).loc main_arg2))) (m ((c.tc : Thread nD τ).loc main_arg6)) (m ((c.tc : Thread nD τ).loc main_arg7)) (m ((c.tc : Thread nD τ).loc main_arg8)) := by
  refine (W4_arr m ρ c 5).trans ((R1.final (V3 m ρ) c).trans ?_)
  show Cert.Sage.layer (V3 m ρ c main_v44 : S20000x256.Idx → EReal) (V3 m ρ c main_v45 : S20000x256.Idx → EReal)
    (V3 m ρ c main_v46 : S256x256.Idx → EReal) (V3 m ρ c main_v47 : S256x256.Idx → EReal)
    (fun i : S256.Idx => (V3 m ρ c main_v48 : S1x256.Idx → EReal) (ix2 0 (i 0))) = _
  rw [in1_h, in1_hn, in1_ws, in1_wn, in1_b, hidden, kept2_1, kept2_2, kept2_6, kept2_7, kept2_8]

/-! ## The arguments at region 1's exit -/

theorem kept4_1 : W4 m ρ c (Proc.devRef .tc main_arg1) = (m ((c.tc : Thread nD τ).loc main_arg1)) :=
  (W4_of_ne m ρ c main_arg1 (by decide)).trans ((by
    show StableHlo.after hostOps1 (W2 m ρ c) (Proc.devRef .tc main_arg1) = W2 m ρ c (Proc.devRef .tc main_arg1)
    after_results : W3 m ρ c (Proc.devRef .tc main_arg1) = W2 m ρ c (Proc.devRef .tc main_arg1)).trans (kept2_1 m ρ c))
theorem kept4_2 : W4 m ρ c (Proc.devRef .tc main_arg2) = (m ((c.tc : Thread nD τ).loc main_arg2)) :=
  (W4_of_ne m ρ c main_arg2 (by decide)).trans ((by
    show StableHlo.after hostOps1 (W2 m ρ c) (Proc.devRef .tc main_arg2) = W2 m ρ c (Proc.devRef .tc main_arg2)
    after_results : W3 m ρ c (Proc.devRef .tc main_arg2) = W2 m ρ c (Proc.devRef .tc main_arg2)).trans (kept2_2 m ρ c))

/-! ## The result -/

set_option maxHeartbeats 4000000 in
/-- The result buffer after the last stretch: the edges scored on region 1's output. -/
theorem scored : (W5 m ρ c (Proc.devRef .tc main_v65) : S320000.Idx → EReal)
    = Cert.ReferenceIdeal.Hand.score (W4 m ρ c (Proc.devRef .tc main_v49) : S20000x256.Idx → EReal) (W4 m ρ c (Proc.devRef .tc main_arg1)) (W4 m ρ c (Proc.devRef .tc main_arg2)) := by
  show StableHlo.after hostOps2 (W4 m ρ c) (Proc.devRef .tc main_v65) = _
  after_results_simp
  exact score_spelling _ _ _

/-- The kernel program's result is the reference's composition over the two layers. -/
theorem result_eq : (W5 m ρ c (Proc.devRef .tc main_v65) : S320000.Idx → EReal)
    = Cert.ReferenceIdeal.Hand.network Cert.Sage.layerRelu Cert.Sage.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [scored, embedded, kept4_1, kept4_2]
  rfl

end Cert.KernelIdeal.Hand

end
-- ==== Proof.lean ====
/-
  The kernel against its reference: a two-layer graph network scoring edges.

  Both programs take node features (20000 × 256), an edge list (320000 sources and destinations), and two layers'
  weights and biases. Each layer first replaces every node's neighbourhood by the mean of its in-neighbours' rows
  (a gather, a scatter-add and a division: plain host operations in BOTH programs, identical in both), then maps
  row `r` to  ∑ₖ h[r,k]·ws[k,c] + ∑ₖ hn[r,k]·wn[k,c] + b[c]  (the first layer followed by a maximum with 0); at the end
  every edge is scored by the dot product of its two end nodes' rows (again the same host operations in both).

  The reference computes each layer with two whole matrix products. The kernel computes it in a region of ten
  blocks of 2000 rows: per block two matrix products into zero accumulators, their sum, the bias row broadcast
  (the changes of float format on the way in are the identity on extended reals). Entry by entry both are the same
  two sums over the 256 shared indices in the same order, so the two results are one function of the arguments —
  on all extended reals: no cancellation or distributivity is used, and the precondition is never opened.

  The modules: Layer (a layer, entry by entry), KBody (what a block stores), KBlocks0 / KBlocks1 (a region's output
  array as that layer of the region's entry arrays: what each block writes back, and that the blocks cover the
  array), KRun (the program's run with its result named), KValue (the result read through the host stretches and
  the two regions), RefShape (the reference's result as the same composition, its layers entry by entry).
-/
import proofs.«101742_j21242908246156_2_alg».proof.Defs
import proofs.«101742_j21242908246156_2_alg».proof.Proof.Gen.Kernel
import proofs.«101742_j21242908246156_2_alg».proof.Proof.Gen.Kernel.Frame
import proofs.«101742_j21242908246156_2_alg».proof.Proof.Gen.KernelIdeal
import proofs.«101742_j21242908246156_2_alg».proof.Proof.Gen.KernelIdeal.Frame
import proofs.«101742_j21242908246156_2_alg».proof.Proof.Gen.ReferenceIdeal
import proofs.«101742_j21242908246156_2_alg».proof.Proof.Gen.ReferenceIdeal.Run
import proofs.«101742_j21242908246156_2_alg».proof.Proof.Gen.Pre_finite_inputs
import proofs.«101742_j21242908246156_2_alg».proof.Proof.KRun
import proofs.«101742_j21242908246156_2_alg».proof.Proof.KValue
import proofs.«101742_j21242908246156_2_alg».proof.Proof.RefShape
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the edge scores of the same network. -/
theorem algebraic : Cert.algebraic_KernelIdeal_ReferenceIdeal := by
  intro m ρ m' ρ' _ hagree
  refine ⟨fun c => Cert.ReferenceIdeal.Hand.network Cert.Sage.layerRelu Cert.Sage.layer (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    (θ_run Cert.KernelIdeal.defs _ _).mono (fun _ h c => ⟨(h c).1.trans (Cert.KernelIdeal.Hand.result_eq m ρ c), (h c).2⟩)
      (Cert.KernelIdeal.Hand.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Hand.result_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
